-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S2048x256 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32768x128 : Shape := ⟨3, ![4, 32768, 128]⟩
abbrev S256x128 : Shape := ⟨2, ![256, 128]⟩
abbrev S_ : Shape := ⟨0, ![]⟩

class Facts : Prop where
  bcast_S_S4x32768x128 : S_.BroadcastsInDim S4x32768x128 (![] : Fin 0 → Fin S4x32768x128.rank)
  reducesTo_S4x32768x128_S_d0_1_2 : S4x32768x128.ReducesTo [0, 1, 2] S_
  h_S_ : 0 < S_.numel
  bcast_S_S256x128 : S_.BroadcastsInDim S256x128 (![] : Fin 0 → Fin S256x128.rank)
  reducesTo_S256x128_S_d0_1 : S256x128.ReducesTo [0, 1] S_

variable [Facts]

def fn {F : FTy → Type} [FloatOps F] (main_arg0 : FVec F S4x32768x128 .f32) (main_arg1 : FVec F S4x32768x128 .f32) (main_arg2 : FVec F S256x128 .f32) : IVec S_ 1 :=
  let main_v0 : FVec F S4x32768x128 .f32 := Host.absf main_arg0
  let main_cst : FVec F S_ .f32 := constant S_ .f32 0x7F800000#32
  let main_v1 : FVec F S4x32768x128 .f32 := broadcastInDim S4x32768x128 ![] bcast_S_S4x32768x128 main_cst
  let main_v2 : IVec S4x32768x128 1 := cmpf .olt main_v0 main_v1
  let main_c : IVec S_ 1 := constantI S_ 1 1#1
  let main_v3 : IVec S_ 1 := (fun x v => Host.reduce IntOp.andi x v reducesTo_S4x32768x128_S_d0_1_2 h_S_) main_v2 main_c
  let main_v4 : FVec F S4x32768x128 .f32 := Host.absf main_arg1
  let main_cst_0 : FVec F S_ .f32 := constant S_ .f32 0x7F800000#32
  let main_v5 : FVec F S4x32768x128 .f32 := broadcastInDim S4x32768x128 ![] bcast_S_S4x32768x128 main_cst_0
  let main_v6 : IVec S4x32768x128 1 := cmpf .olt main_v4 main_v5
  let main_c_1 : IVec S_ 1 := constantI S_ 1 1#1
  let main_v7 : IVec S_ 1 := (fun x v => Host.reduce IntOp.andi x v reducesTo_S4x32768x128_S_d0_1_2 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  main_v13
-- ==== Kernel.lean ====
abbrev S4x32768x128 : Shape := ⟨3, ![4, 32768, 128]⟩
abbrev S256x128 : Shape := ⟨2, ![256, 128]⟩
abbrev S131072x128 : Shape := ⟨2, ![131072, 128]⟩
abbrev S131072 : Shape := ⟨1, ![131072]⟩
abbrev S8192x128 : Shape := ⟨2, ![8192, 128]⟩
abbrev S8192 : Shape := ⟨1, ![8192]⟩
abbrev S2048x128 : Shape := ⟨2, ![2048, 128]⟩
abbrev S2048x256 : Shape := ⟨2, ![2048, 256]⟩
abbrev S2048 : Shape := ⟨1, ![2048]⟩
abbrev S4x32768 : Shape := ⟨2, ![4, 32768]⟩

abbrev nBuf : Space → Nat
  | .hbm => 7
  | .vmem => 7
  | .smem => 0
  | _ => 0

abbrev bufTy : (tb : Table) → Fin (tcTables nBuf tb) → BufTy
  | .hbm, ⟨0, _⟩ => ⟨S4x32768x128, .f32⟩
  | .hbm, ⟨1, _⟩ => ⟨S4x32768x128, .f32⟩
  | .hbm, ⟨2, _⟩ => ⟨S256x128, .f32⟩
  | .hbm, ⟨3, _⟩ => ⟨S131072x128, .f32⟩
  | .hbm, ⟨4, _⟩ => ⟨S131072x128, .f32⟩
  | .hbm, ⟨5, _⟩ => ⟨S131072, .f32⟩
  | .hbm, ⟨6, _⟩ => ⟨S4x32768, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S256x128, .f32⟩
  | .local _ .vmem, ⟨5, _⟩ => ⟨S8192, .f32⟩
  | .local _ .vmem, ⟨6, _⟩ => ⟨S8192, .f32⟩
  | _, _ => ⟨S4x32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32 : BitVec 32 := 0#32
  let c4_i32 : BitVec 32 := 4#32
  let v2 : BitVec 32 := Scalar.addi c0_i32 c4_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2048_i32 : BitVec 32 := 2048#32
  let v3 : BitVec 32 := Scalar.muli arg5 c2048_i32
  v3
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v3 : BitVec 32 := Scalar.muli arg5 c2048_i32
  let v4 : BitVec 32 := v3
  let v5 : Index := Scalar.indexCast v4
  let c0_2 : Index := 0#32
  ![v5.toNat, 0]
def k0_off2 (k0_t1 : Fin k0_t1_loop.trips) : Fin 1 → Nat :=
  let c0_i32 : BitVec 32 := 0#32
  let c1_i32 : BitVec 32 := 1#32
  let arg5 : BitVec 32 := Scf.iv c0_i32 c1_i32 k0_t1
  let c2048_i32 : BitVec 32 := 2048#32
  let v3 : BitVec 32 := Scalar.muli arg5 c2048_i32
  let v4 : BitVec 32 := v3
  let v28 : Index := Scalar.indexCast v4
  ![v28.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x32768x128_S131072x128 : S4x32768x128.ShapeCasts S131072x128
  inb_S256x128_S256x128_0_0 : ∀ a, (![0, 0] : Fin 2 → Nat) a + S256x128.size a ≤ S256x128.size a
  h_S256x128 : 0 < S256x128.numel
  bitsLt_bf16_f32 : FTy.bits .bf16 < FTy.bits .f32
  h_S2048x128 : 0 < S2048x128.numel
  shapeCasts_S2048x128_S2048x128 : S2048x128.ShapeCasts S2048x128
  reduces_S2048x256_S2048 : S2048x256.Reduces [1] S2048
  h_S2048 : 0 < S2048.numel
  shapeCasts_S131072_S4x32768 : S131072.ShapeCasts S4x32768
  dot_S2048x128_S256x128_S2048x256_1_1_0_0_n_n_wf : DotDims.WF S2048x128 S256x128 S2048x256 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x128.size a ≤ S8192x128.size a
  k0_off2_inb : ∀ k0_t1 : Fin k0_t1_loop.trips, ∀ a, (k0_off2 k0_t1) a + S2048.size a ≤ S8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S131072.size a
  hwx0_3 : ∀ i : grid0.Coords, EltTy.bits .f32 = 32 ∨ (Rect.block (s := S131072) S8192.size (cc0_transform_3 i) (hinb0_3 i)).WholeWords (EltTy.packing .f32)

variable [Facts₀]

def dot_S2048x128_S256x128_S2048x256_1_1_0_0_n_n : DotDims S2048x128 S256x128 S2048x256 where
  lhsContracting := [1]
  rhsContracting := [1]
  lhsNonContracting := [0]
  rhsNonContracting := [0]
  lhsBatch := []
  rhsBatch := []
  wf := dot_S2048x128_S256x128_S2048x256_1_1_0_0_n_n_wf

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x32768x128 : Shape := ⟨3, ![4, 32768, 128]⟩
abbrev S256x128 : Shape := ⟨2, ![256, 128]⟩
abbrev S4x32768x256 : Shape := ⟨3, ![4, 32768, 256]⟩
abbrev S_ : Shape := ⟨0, ![]⟩
abbrev S4x32768 : Shape := ⟨2, ![4, 32768]⟩

abbrev nBuf : Space → Nat
  | .hbm => 12
  | .vmem => 0
  | .smem => 0
  | _ => 0

abbrev bufTy : (tb : Table) → Fin (tcTables nBuf tb) → BufTy
  | .hbm, ⟨0, _⟩ => ⟨S4x32768x128, .f32⟩
  | .hbm, ⟨1, _⟩ => ⟨S4x32768x128, .f32⟩
  | .hbm, ⟨2, _⟩ => ⟨S256x128, .f32⟩
  | .hbm, ⟨3, _⟩ => ⟨S4x32768x256, .f32⟩
  | .hbm, ⟨4, _⟩ => ⟨S4x32768x256, .f32⟩
  | .hbm, ⟨5, _⟩ => ⟨S4x32768x256, .f32⟩
  | .hbm, ⟨6, _⟩ => ⟨S4x32768x256, .f32⟩
  | .hbm, ⟨7, _⟩ => ⟨S_, .f32⟩
  | .hbm, ⟨8, _⟩ => ⟨S4x32768, .f32⟩
  | .hbm, ⟨9, _⟩ => ⟨S_, .f32⟩
  | .hbm, ⟨10, _⟩ => ⟨S4x32768, .f32⟩
  | .hbm, ⟨11, _⟩ => ⟨S4x32768, .f32⟩
  | _, _ => ⟨S4x32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  reducesTo_S4x32768x256_S4x32768_d2 : S4x32768x256.ReducesTo [2] S4x32768
  h_S_ : 0 < S_.numel
  bcast_S_S4x32768 : S_.BroadcastsInDim S4x32768 (![] : Fin 0 → Fin S4x32768.rank)
  dot_S4x32768x128_S256x128_S4x32768x256_2_1_01_0_n_n_wf : DotDims.WF S4x32768x128 S256x128 S4x32768x256 [2] [1] [0, 1] [0] [] []

variable [Facts₀]

def dot_S4x32768x128_S256x128_S4x32768x256_2_1_01_0_n_n : DotDims S4x32768x128 S256x128 S4x32768x256 where
  lhsContracting := [2]
  rhsContracting := [1]
  lhsNonContracting := [0, 1]
  rhsNonContracting := [0]
  lhsBatch := []
  rhsBatch := []
  wf := dot_S4x32768x128_S256x128_S4x32768x256_2_1_01_0_n_n_wf

class Facts : Prop extends Facts₀ where

variable [Facts]
-- ==== Proof.Spec.lean ====
/-
  The estimator both programs compute, stated once over plain index types.

  One row of the result depends on one row `q` of the queries, the same row `k` of the keys and the whole
  256 × 128 projection matrix `s`: project both rows on the 256 directions, keep of the key's projections only their
  signs (−1, 0 or 1), and sum the products of the query's projections with those signs; the sum is multiplied by one
  fixed scale. The two programs differ in the order of the last product and in how the rows are laid out (a
  [4, 32768] grid of rows against one run of 131072 rows cut into blocks); neither difference changes a value over
  the extended reals.
-/
import Idealize.ShloMosaic.PureOps.Ideal
import Idealize.ShloMosaic.Lib.ValueIdx

noncomputable section

namespace Cert.Qjl

open Idealize.ShloMosaic Idealize.ShloMosaic.ValueIdx
open scoped BigOperators

/-- The scale: the one float constant both programs multiply the sum by. -/
abbrev scale : EReal := Ideal.ofBits .f32 0x3BA06C99#32

/-- One row's estimate: `scale · ∑ⱼ (q · sⱼ) · sign (k · sⱼ)`, the dot products over the 128 coordinates. -/
def rowEst (q k : Fin 128 → EReal) (s : (⟨2, ![256, 128]⟩ : Shape).Idx → EReal) : EReal :=
  scale * ∑ j : Fin 256, (∑ d : Fin 128, q d * s (ix2 j d)) * Ideal.sign (∑ d : Fin 128, k d * s (ix2 j d))

/-- The result over the [4, 32768] grid of rows. -/
def estGrid (q k : (⟨3, ![4, 32768, 128]⟩ : Shape).Idx → EReal) (s : (⟨2, ![256, 128]⟩ : Shape).Idx → EReal) :
    (⟨2, ![4, 32768]⟩ : Shape).Idx → EReal :=
  fun i => rowEst (fun d => q (ix3 (i 0) (i 1) d)) (fun d => k (ix3 (i 0) (i 1) d)) s

theorem estGrid_ix2 (q k : (⟨3, ![4, 32768, 128]⟩ : Shape).Idx → EReal) (s : (⟨2, ![256, 128]⟩ : Shape).Idx → EReal)
    (b : Fin 4) (n : Fin 32768) :
    estGrid q k s (ix2 b n) = rowEst (fun d => q (ix3 b n d)) (fun d => k (ix3 b n d)) s := rfl

/-- The same over one run of 131072 rows. -/
def estFlat (q k : (⟨2, ![131072, 128]⟩ : Shape).Idx → EReal) (s : (⟨2, ![256, 128]⟩ : Shape).Idx → EReal) :
    (⟨1, ![131072]⟩ : Shape).Idx → EReal :=
  fun r => rowEst (fun d => q (ix2 (r 0) d)) (fun d => k (ix2 (r 0) d)) s

theorem estFlat_ix1 (q k : (⟨2, ![131072, 128]⟩ : Shape).Idx → EReal) (s : (⟨2, ![256, 128]⟩ : Shape).Idx → EReal)
    (r : Fin 131072) :
    estFlat q k s (ix1 r) = rowEst (fun d => q (ix2 r d)) (fun d => k (ix2 r d)) s := rfl

end Cert.Qjl

end
-- ==== Proof.RefIsSpec.lean ====
/-
  The reference program's result is the specification.

  The reference multiplies, row by row over the [4, 32768] grid, one fixed scale with the sum over the 256 directions
  of (query row · direction) times the sign of (key row · direction). At the row (b, n) its value is
  scale · (0 + ∑ⱼ (∑_d q(b,n,d) · s(j,d)) · sign (∑_d k(b,n,d) · s(j,d))): the specification's row estimate, since
  0 + x = x over the extended reals. The scale is the same constant on both sides and is never evaluated.
-/
import proofs.«147206_j42700564857502_2_alg».proof.Proof.Spec
import proofs.«147206_j42700564857502_2_alg».proof.Proof.Gen.ReferenceIdeal.Read

noncomputable section

namespace Cert.Qjl

open Idealize.ShloMosaic Idealize.ShloMosaic.ValueIdx Idealize.SL.Sem
open Cert.ReferenceIdeal Cert.ReferenceIdeal.Read
open scoped BigOperators

/-- The summed array's index at row (b, n), direction j. -/
theorem idx_sum (b : Fin 4) (n : Fin 32768) (j : Fin 256) : idx_main_v4 (ix2 b n) j = ix3 b n j :=
  funext fun a => Fin.ext (by match a with | ⟨0, _⟩ => rfl | ⟨1, _⟩ => rfl | ⟨2, _⟩ => rfl)

/-- The key product's left index at (b, n, j), coordinate d: the key row's coordinate d. -/
theorem lidx_key (b : Fin 4) (n : Fin 32768) (j : Fin 256) (d : Fin 128) :
    lidx_main_v0 (ix3 b n j) d = ix3 b n d :=
  funext fun a => Fin.ext (by match a with | ⟨0, _⟩ => rfl | ⟨1, _⟩ => rfl | ⟨2, _⟩ => rfl)

/-- The key product's right index at (b, n, j), coordinate d: direction j's coordinate d. -/
theorem ridx_key (b : Fin 4) (n : Fin 32768) (j : Fin 256) (d : Fin 128) :
    ridx_main_v0 (ix3 b n j) d = ix2 j d :=
  funext fun a => Fin.ext (by match a with | ⟨0, _⟩ => rfl | ⟨1, _⟩ => rfl)

/-- The query product's left index at (b, n, j), coordinate d: the query row's coordinate d. -/
theorem lidx_query (b : Fin 4) (n : Fin 32768) (j : Fin 256) (d : Fin 128) :
    lidx_main_v2 (ix3 b n j) d = ix3 b n d :=
  funext fun a => Fin.ext (by match a with | ⟨0, _⟩ => rfl | ⟨1, _⟩ => rfl | ⟨2, _⟩ => rfl)

/-- The query product's right index at (b, n, j), coordinate d: direction j's coordinate d. -/
theorem ridx_query (b : Fin 4) (n : Fin 32768) (j : Fin 256) (d : Fin 128) :
    ridx_main_v2 (ix3 b n j) d = ix2 j d :=
  funext fun a => Fin.ext (by match a with | ⟨0, _⟩ => rfl | ⟨1, _⟩ => rfl)

/-- The reference's result, as a function of the query, key and projection arrays, is the estimator over the grid. -/
theorem ref_eq (x0 x1 : (⟨Cert.ReferenceIdeal.S4x32768x128, .f32⟩ : BufTy).Contents (Elt Ideal))
    (x2 : (⟨Cert.ReferenceIdeal.S256x128, .f32⟩ : BufTy).Contents (Elt Ideal)) :
    Cert.ReferenceIdeal.Read.val_main_v6 (F := Ideal) x0 x1 x2 = Cert.Qjl.estGrid x0 x1 x2 := by
  funext i
  obtain ⟨b, n, rfl⟩ : ∃ (b : Fin 4) (n : Fin 32768), i = ix2 b n := ⟨i 0, i 1, ValueIdx.eq_ix2 i⟩
  rw [estGrid_ix2, rowEst, val_main_v6_apply, val_main_v5_apply, val_main_cst_0_apply, val_main_v4_apply,
    val_main_cst_apply]
  simp only [idx_sum, val_main_v3_apply, val_main_v2_apply, val_main_v1_apply, val_main_v0_apply,
    lidx_key, ridx_key, lidx_query, ridx_query,
    Ideal.mulf_def, Ideal.hostUnary_sign_def, Ideal.ofBits_def, Ideal.ofBits_zero_f32, zero_add]

end Cert.Qjl

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.Payload.lean ====
/-
  What one chunk of the kernel's body computes, row by row.

  The body handles 2048 rows at a time. For one chunk it forms two matrix products against the 256 × 128 projection
  matrix `s`, contracting the 128 coordinates: the query rows' projections and the key rows' projections, both
  [2048, 256]. Of the key's projections it keeps the sign, written as "where |x| > 0 take (−1 where x < 0, else 1),
  else x" — which is the order's sign, 0 at 0 included. It multiplies the query's projections by these signs, sums each
  row over its 256 entries, and multiplies the sums by one fixed scale. Read at row `j` of the chunk this is the
  specification's estimate of row `j` of the queries and row `j` of the keys; the only difference, the scale on
  the right of the product instead of the left, is commutativity of the product on the extended reals.
-/
import proofs.«147206_j42700564857502_2_alg».proof.Proof.Spec
import proofs.«147206_j42700564857502_2_alg».proof.Proof.LibKeepdims
import proofs.«147206_j42700564857502_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.Qjl

open Idealize.ShloMosaic Idealize.ShloMosaic.ValueIdx Cert.KernelIdeal
open scoped BigOperators

/-- The left operand's index of a product: its row is the result's row. -/
theorem dot_lhs_0 (i : S2048x256.Idx) (c : dot_S2048x128_S256x128_S2048x256_1_1_0_0_n_n.contr.Idx) :
    (dot_S2048x128_S256x128_S2048x256_1_1_0_0_n_n.lhsIdx i c 0).val = (i 0).val := by
  unfold DotDims.lhsIdx
  rw [dif_neg (show ¬(0 : Fin S2048x128.rank) ∈ dot_S2048x128_S256x128_S2048x256_1_1_0_0_n_n.lhsBatch by decide),
    dif_pos (show (0 : Fin S2048x128.rank) ∈ dot_S2048x128_S256x128_S2048x256_1_1_0_0_n_n.lhsNonContracting by decide)]
  rfl
/-- Its column is the contracted coordinate. -/
theorem dot_lhs_1 (i : S2048x256.Idx) (c : dot_S2048x128_S256x128_S2048x256_1_1_0_0_n_n.contr.Idx) :
    (dot_S2048x128_S256x128_S2048x256_1_1_0_0_n_n.lhsIdx i c 1).val = (c ⟨0, by decide⟩).val :=
  dot_S2048x128_S256x128_S2048x256_1_1_0_0_n_n.lhsIdx_val_of_single rfl i c
/-- The right operand's index: its row is the result's column. -/
theorem dot_rhs_0 (i : S2048x256.Idx) (c : dot_S2048x128_S256x128_S2048x256_1_1_0_0_n_n.contr.Idx) :
    (dot_S2048x128_S256x128_S2048x256_1_1_0_0_n_n.rhsIdx i c 0).val = (i 1).val := by
  unfold DotDims.rhsIdx
  rw [dif_neg (show ¬(0 : Fin S256x128.rank) ∈ dot_S2048x128_S256x128_S2048x256_1_1_0_0_n_n.rhsBatch by decide),
    dif_pos (show (0 : Fin S256x128.rank) ∈ dot_S2048x128_S256x128_S2048x256_1_1_0_0_n_n.rhsNonContracting by decide)]
  rfl
/-- Its column is the contracted coordinate. -/
theorem dot_rhs_1 (i : S2048x256.Idx) (c : dot_S2048x128_S256x128_S2048x256_1_1_0_0_n_n.contr.Idx) :
    (dot_S2048x128_S256x128_S2048x256_1_1_0_0_n_n.rhsIdx i c 1).val = (c ⟨0, by decide⟩).val :=
  dot_S2048x128_S256x128_S2048x256_1_1_0_0_n_n.rhsIdx_val_of_single rfl i c

/-- A matrix product contracting the second axis of both operands, into the zero accumulator, read at `(p, q)`:
    the dot product of row `p` of the left operand with row `q` of the right one. -/
theorem matmul_zero_apply {φ₁ φ₂ : FTy} (prec : Option ContractPrecision)
    (l : FVec Ideal S2048x128 φ₁) (r : FVec Ideal S256x128 φ₂) (p : Fin 2048) (q : Fin 256) :
    matmul dot_S2048x128_S256x128_S2048x256_1_1_0_0_n_n prec l r (constant S2048x256 .f32 0x00000000#32) (ix2 p q)
      = ∑ c : Fin 128, l (ix2 p c) * r (ix2 q c) := by
  refine (Ideal.matmul_constant_zero_apply dot_S2048x128_S256x128_S2048x256_1_1_0_0_n_n prec l r (ix2 p q)).trans ?_
  rw [← Equiv.sum_comp (contrEquiv1 dot_S2048x128_S256x128_S2048x256_1_1_0_0_n_n 128 rfl rfl).symm]
  refine Finset.sum_congr rfl fun k _ => ?_
  have hk := contrEquiv1_symm_val dot_S2048x128_S256x128_S2048x256_1_1_0_0_n_n 128 rfl rfl k
  have el : dot_S2048x128_S256x128_S2048x256_1_1_0_0_n_n.lhsIdx (ix2 p q) ((contrEquiv1 dot_S2048x128_S256x128_S2048x256_1_1_0_0_n_n 128 rfl rfl).symm k) = ix2 p k :=
    funext fun a => Fin.ext (by
      match a with
      | ⟨0, _⟩ => exact dot_lhs_0 _ _
      | ⟨1, _⟩ => exact (dot_lhs_1 _ _).trans hk)
  have er : dot_S2048x128_S256x128_S2048x256_1_1_0_0_n_n.rhsIdx (ix2 p q) ((contrEquiv1 dot_S2048x128_S256x128_S2048x256_1_1_0_0_n_n 128 rfl rfl).symm k) = ix2 q k :=
    funext fun a => Fin.ext (by
      match a with
      | ⟨0, _⟩ => exact dot_rhs_0 _ _
      | ⟨1, _⟩ => exact (dot_rhs_1 _ _).trans hk)
  rw [el, er]

/-- One chunk's result at row `j` is the estimate of row `j` of the queries and row `j` of the keys. -/
theorem pay_apply (v0 : Vec Ideal S256x128 .f32) (v6 v9 : Vec Ideal S2048x128 .f32) (j : Fin 2048) :
    Gen.k0_pay1 (F := Ideal) v0 v6 v9 (ix1 j)
      = rowEst (fun d => v6 (ix2 j d)) (fun d => v9 (ix2 j d)) v0 := by
  unfold Gen.k0_pay1 rowEst
  -- the last product, at row `j`, with the scale moved to the left
  refine (mulf_apply _ _ (ix1 j)).trans ?_
  refine (mul_comm _ _).trans ?_
  refine congrArg (scale * ·) ?_
  -- the sum over the 256 entries of row `j`
  refine (Cert.LibKeepdims.multiReduction_add_row (a := 2048) (b := 256) _ _ _ _ _ j).trans ?_
  refine Finset.sum_congr rfl fun q _ => ?_
  refine (mulf_apply _ _ (ix2 j q)).trans ?_
  refine congrArg₂ (· * ·) ?_ ?_
  · -- the query's projection on direction `q`
    refine (matmul_zero_apply none _ _ j q).trans ?_
    refine Finset.sum_congr rfl fun d _ => ?_
    rw [truncf_apply, truncf_apply, shapeCast_self]
  · -- the sign of the key's projection on direction `q`
    refine (Ideal.jnp_sign_eq_sign_f32 _).trans ?_
    refine congrArg Ideal.sign ?_
    refine (matmul_zero_apply (some .fp32) _ _ j q).trans ?_
    refine Finset.sum_congr rfl fun d _ => ?_
    rw [shapeCast_self]

end Cert.Qjl

end
-- ==== Proof.Pieces.lean ====
/-
  What the kernel's body leaves in its output block, row by row.

  The body walks its 8192-row block in four chunks of 2048 rows; chunk `k` loads rows `2048 k … 2048 k + 2047` of the
  query and key blocks, computes the 2048 estimates of those rows and stores them at the same rows of the output block.
  Every chunk's store is therefore a restriction of ONE function of the row — the row's estimate from that row of the
  two input blocks and the projection matrix — and the four stores cover the block, so the block ends holding that
  function, whatever the order of the chunks.
-/
import proofs.«147206_j42700564857502_2_alg».proof.Proof.Spec
import proofs.«147206_j42700564857502_2_alg».proof.Proof.Payload
import proofs.«147206_j42700564857502_2_alg».proof.Proof.Gen.KernelIdeal.Frame
import Idealize.ShloMosaic.Lib.Pipeline.Value
import Idealize.ShloMosaic.Lib.ValueIdx

noncomputable section

namespace Cert.Qjl

open Idealize.ShloMosaic Idealize.ShloMosaic.TcCoe Idealize.ShloMosaic.ValueIdx Idealize.SL.Sem
open Cert.KernelIdeal Cert.KernelIdeal.Gen

/-- The estimates of the 8192 rows of a block: row `y` from row `y` of the two input blocks. -/
def blockEst (x0 x1 : Vec Ideal S8192x128 .f32) (x2 : Vec Ideal S256x128 .f32) : Vec Ideal S8192 .f32 :=
  fun y => rowEst (fun d => x0 (ix2 (y 0) d)) (fun d => x1 (ix2 (y 0) d)) x2

/-- One chunk: the payload of the rows loaded at offset `off1` (rows `off1 0 + j`, all 128 columns), read at row `j` of
    the chunk, is the block's estimate at the row the store at offset `off2` puts it — the two offsets being the same
    row. -/
theorem chunk_apply (x2 : Vec Ideal S256x128 .f32) (x0 x1 : Vec Ideal S8192x128 .f32) (off1 : Fin 2 → Nat) (off2 : Fin 1 → Nat)
    (inb1 : ∀ a, off1 a + S2048x128.size a ≤ S8192x128.size a) (inb2 : ∀ a, off2 a + S2048.size a ≤ S8192.size a)
    (h0 : off1 0 = off2 0) (h1 : off1 1 = 0) (j : Fin 2048) :
    k0_pay1 (F := Ideal) x2 (View.ld x0 (Rect.unit (s := S8192x128) off1 S2048x128.size inb1)) (View.ld x1 (Rect.unit (s := S8192x128) off1 S2048x128.size inb1)) (ix1 j)
      = blockEst x0 x1 x2 ((Rect.unit (s := S8192) off2 S2048.size inb2).emb (ix1 j)) := by
  refine (pay_apply x2 _ _ j).trans ?_
  have e : ∀ d : Fin 128, (Rect.unit (s := S8192x128) off1 S2048x128.size inb1).idx (ix2 j d)
      = (ix2 ((Rect.unit (s := S8192) off2 S2048.size inb2).emb (ix1 j) 0) d : S8192x128.Idx) := fun d =>
    funext fun a => Fin.ext (by
      match a with
      | ⟨0, _⟩ => show off1 0 + 1 * j.val = off2 0 + 1 * j.val; omega
      | ⟨1, _⟩ => show off1 1 + 1 * d.val = d.val; omega)
  unfold blockEst
  refine congrArg₂ (fun a b => rowEst a b x2) (funext fun d => ?_) (funext fun d => ?_)
  · exact congrArg x0 (e d)
  · exact congrArg x1 (e d)

section
variable (c : Dev nD) (i : grid0.Coords) (arg1 : Memref sig .tc .vmem S8192x128 .f32) (harg1 : arg1.IsWhole)
  (arg2 : Memref sig .tc .vmem S8192x128 .f32) (harg2 : arg2.IsWhole) (arg3 : Memref sig .tc .vmem S256x128 .f32) (harg3 : arg3.IsWhole)
  (arg4 : Memref sig .tc .vmem S8192 .f32) (harg4 : arg4.IsWhole)
  (x0 x1 : Vec Ideal S8192x128 .f32) (x2 : Vec Ideal S256x128 .f32)

/-- The one store of chunk `k`: at the chunk's rows, of the payload of the chunk's loads. -/
theorem trip_pieces (k : Fin k0_t1_loop.trips) :
    tripL_k0_t1 (F := Ideal) Variants.none c none i arg1 harg1 arg2 harg2 arg3 harg3 arg4 harg4 x2 (harg1.unread x0) (harg2.unread x1) k
      = [⟨Rect.unit (s := S8192) (k0_off2 k) S2048.size (k0_off2_inb k),
          k0_pay1 (F := Ideal) x2 (View.ld x0 (Rect.unit (s := S8192x128) (k0_off1 k) S2048x128.size (k0_off1_inb k)))
            (View.ld x1 (Rect.unit (s := S8192x128) (k0_off1 k) S2048x128.size (k0_off1_inb k)))⟩] := by
  unfold tripL_k0_t1 trip_k0_t1
  dsimp only
  simp only [View.readAt_eq_ld, harg1.read_unread, harg2.read_unread]

/-- Every store of the chunks before `n` is a restriction of the block's estimates. -/
theorem pieces_before : ∀ (n : ℕ), ∀ p ∈ pb_k0_t1 (F := Ideal) Variants.none c none i arg1 harg1 arg2 harg2 arg3 harg3 arg4 harg4 x2 (harg1.unread x0) (harg2.unread x1) n,
    ∀ x : p.1.shape.Idx, p.2 x = blockEst x0 x1 x2 (p.1.emb x)
  | 0 => fun p hp => absurd hp List.not_mem_nil
  | n + 1 => fun p hp => by
    rw [pb_k0_t1.eq_2] at hp
    unfold pb_k0_t1Step at hp
    split at hp
    · rename_i hn
      rcases List.mem_append.mp hp with h | h
      · rw [trip_pieces, List.mem_singleton] at h
        subst h
        intro x
        obtain ⟨j, rfl⟩ : ∃ j : Fin 2048, x = ix1 j := ⟨x 0, eq_ix1 x⟩
        exact chunk_apply x2 x0 x1 (k0_off1 ⟨n, hn⟩) (k0_off2 ⟨n, hn⟩) (k0_off1_inb _) (k0_off2_inb _) rfl rfl j
      · exact pieces_before n p h
    · exact pieces_before n p hp

/-- So the body leaves the block's estimates in its output block. -/
theorem out_eq : out0_A_3 (F := Ideal) c i arg1 harg1 arg2 harg2 arg3 harg3 arg4 harg4 x0 x1 x2 = blockEst x0 x1 x2 := by
  funext y
  unfold out0_A_3
  rw [View.read_writes_eq_canon _ _ _ (cover0_A_3 c i arg1 harg1 arg2 harg2 arg3 harg3 arg4 harg4 x0 x1 x2)]
  refine View.canon_apply_of_pieces (blockEst x0 x1 x2) _ ?_ y (cover0_A_3 c i arg1 harg1 arg2 harg2 arg3 harg3 arg4 harg4 x0 x1 x2 y)
  unfold kernelRun0_A
  dsimp only
  have hz : (![0, 0] : Fin 2 → Nat) = fun _ => 0 := funext fun a => by fin_cases a <;> rfl
  rw [View.readAt_eq_ld, harg3.read_unread, View.ld_unit_zero (S := S256x128) hz]
  exact pieces_before c i arg1 harg1 arg2 harg2 arg3 harg3 arg4 harg4 x0 x1 x2 _

end

end Cert.Qjl

end
-- ==== Proof.Blocks.lean ====
/-
  From the blocks to the whole result.

  The kernel is launched on sixteen points; point `t` receives rows `8192 t … 8192 t + 8191` of the flattened query
  and key arrays (all 128 columns) and the whole projection matrix, and writes back rows `8192 t …` of the flat
  result. What the body leaves is the block's estimates, row by row; a row of a block is a row of the flat arrays, so
  every point writes back its block of ONE function of the flat row — the row's estimate — and the sixteen blocks cover
  the 131072 rows. The flat arrays are the [4, 32768, 128] arguments re-laid in row-major order, and the program's
  result is the flat result re-laid as [4, 32768]: row `(b, n)` of the grid is flat row `32768 b + n` on both sides.
-/
import proofs.«147206_j42700564857502_2_alg».proof.Proof.Spec
import proofs.«147206_j42700564857502_2_alg».proof.Proof.Pieces
import proofs.«147206_j42700564857502_2_alg».proof.Proof.Gen.KernelIdeal.Frame
import Idealize.ShloMosaic.Lib.Pipeline.Value
import Idealize.ShloMosaic.Lib.ValueIdx
import Idealize.ShloMosaic.Lib.StableHlo.Run
import Idealize.ShloMosaic.PureOps.Ideal

noncomputable section

namespace Cert.Qjl

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The flat result: flat row `r`'s estimate from the flat arrays as the launch finds them. -/
def resFlat (c : Dev nD) : S131072.Idx → EReal :=
  estFlat (V m c main_v0) (V m c main_v1) (V m c main_arg2)

/-- Where the windows' blocks sit: at point `t` the query, key and result windows are at block `t` of the rows (and the
    one block of columns), the projection matrix at its one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- What point `t` writes back is its block of the flat result. -/
theorem flushed_eq (c : Dev nD) (t : Fin cfg0.N) :
    (dats m 0 c).flushed 3 t = ((cfg0.win 3).blk t).view.read (Elt Ideal) (resFlat m c) := by
  show (cfg0.win 3).cut (grid0.coords t) ((dats m 0 c).after 3 t) = _
  rw [after0_3]
  unfold outsAt0
  rw [out_eq]
  obtain ⟨e00, e01, e10, e11, e20, e21, e3⟩ := idx_facts t
  funext y
  show blockEst (iblk m c 0 t) (iblk m c 1 t) (iblk m c 2 t) y = resFlat m c (((cfg0.win 3).blk t).view.emb y)
  unfold blockEst resFlat estFlat
  have h2 : (iblk m c 2 t : Vec Ideal S256x128 .f32) = V m c main_arg2 := by
    funext j
    unfold iblk
    rw [View.read_apply]
    show V m c main_arg2 (((cfg0.win 2).blk t).view.emb j) = V m c main_arg2 j
    refine congrArg (V m c main_arg2) (funext fun a => Fin.ext ?_)
    match a with
    | ⟨0, _⟩ => show win0_2.index t (0 : Fin 2) * 256 + 1 * (j 0).val = (j 0).val; rw [e20]; omega
    | ⟨1, _⟩ => show win0_2.index t (1 : Fin 2) * 128 + 1 * (j 1).val = (j 1).val; rw [e21]; omega
  rw [h2]
  refine congrArg₂ (fun a b => rowEst a b (V m c main_arg2)) (funext fun d => ?_) (funext fun d => ?_)
  · unfold iblk
    rw [View.read_apply]
    show V m c main_v0 (((cfg0.win 0).blk t).view.emb (ix2 (y 0) d)) = V m c main_v0 (ix2 (((cfg0.win 3).blk t).view.emb y 0) d)
    refine congrArg (V m c main_v0) (funext fun a => Fin.ext ?_)
    match a with
    | ⟨0, _⟩ => show win0_0.index t (0 : Fin 2) * 8192 + 1 * (y 0).val = win0_3.index t (0 : Fin 1) * 8192 + 1 * (y 0).val; rw [e00, e3]
    | ⟨1, _⟩ => show win0_0.index t (1 : Fin 2) * 128 + 1 * d.val = d.val; rw [e01]; omega
  · unfold iblk
    rw [View.read_apply]
    show V m c main_v1 (((cfg0.win 1).blk t).view.emb (ix2 (y 0) d)) = V m c main_v1 (ix2 (((cfg0.win 3).blk t).view.emb y 0) d)
    refine congrArg (V m c main_v1) (funext fun a => Fin.ext ?_)
    match a with
    | ⟨0, _⟩ => show win0_1.index t (0 : Fin 2) * 8192 + 1 * (y 0).val = win0_3.index t (0 : Fin 1) * 8192 + 1 * (y 0).val; rw [e10, e3]
    | ⟨1, _⟩ => show win0_1.index t (1 : Fin 2) * 128 + 1 * d.val = d.val; rw [e11]; omega

/-- A flat row is in point `t`'s block iff it is one of the rows `8192 t … 8192 t + 8191`. -/
theorem mem_blk (t : Fin cfg0.N) (i : S131072.Idx) :
    i ∈ ((cfg0.win 3).blk t).view.set ↔ ∀ a : Fin 1, win0_3.index t a * S8192.size a ≤ (i a).val ∧ (i a).val < win0_3.index t a * S8192.size a + S8192.size a := by
  show i ∈ ((View.whole main_v2).slice (win0_3.rect t)).set ↔ _
  rw [View.set_slice_whole, Rect.mem_set_unit]
  exact Iff.rfl

/-- The sixteen blocks cover the rows (row `r` is in block `r / 8192`), so the flat array ends holding the flat result. -/
theorem final (c : Dev nD) : (dats m 0 c).arrAt 3 cfg0.N = resFlat m c :=
  (dats m 0 c).arrAt_eq_of_cover 3 (resFlat m c) (fun t _ => flushed_eq m c t) fun i => by
    have hi : (i 0).val < 131072 := (i 0).isLt
    have hN : cfg0.N = 16 := N_0
    have ht : (i 0).val / 8192 < cfg0.N := by rw [hN]; omega
    refine ⟨⟨(i 0).val / 8192, ht⟩, flush0_3 _, ?_⟩
    rw [mem_blk]
    intro a
    obtain ⟨-, -, -, -, -, -, e3⟩ := idx_facts ⟨(i 0).val / 8192, ht⟩
    match a with
    | ⟨0, _⟩ =>
      show win0_3.index ⟨(i 0).val / 8192, ht⟩ (0 : Fin 1) * 8192 ≤ (i 0).val ∧ (i 0).val < win0_3.index ⟨(i 0).val / 8192, ht⟩ (0 : Fin 1) * 8192 + 8192
      rw [e3]
      show (i 0).val / 8192 * 8192 ≤ (i 0).val ∧ (i 0).val < (i 0).val / 8192 * 8192 + 8192
      omega

/-- The flat query array the launch finds is the query argument re-laid. -/
theorem V_v0 (c : Dev nD) : (V m c main_v0 : S131072x128.Idx → EReal)
    = shapeCast S131072x128 (m ((c : Thread nD τ).loc main_arg0)) shapeCasts_S4x32768x128_S131072x128 := by
  show StableHlo.after hostOps0 (fun b => m (c, b)) (Proc.devRef .tc main_v0) = _
  after_results
  rfl

/-- The flat key array the launch finds is the key argument re-laid. -/
theorem V_v1 (c : Dev nD) : (V m c main_v1 : S131072x128.Idx → EReal)
    = shapeCast S131072x128 (m ((c : Thread nD τ).loc main_arg1)) shapeCasts_S4x32768x128_S131072x128 := by
  show StableHlo.after hostOps0 (fun b => m (c, b)) (Proc.devRef .tc main_v1) = _
  after_results
  rfl

/-- The program's result after the launch: the flat result re-laid as [4, 32768]. -/
theorem tail_eq (c : Dev nD) : Pipeline.afterTail₀ cfgs (dats m) 0 (V0 m) [hostOps1] c main_v3
    = shapeCast S4x32768 (resFlat m c) shapeCasts_S131072_S4x32768 := by
  unfold Pipeline.afterTail₀
  show StableHlo.after hostOps1 _ (Proc.devRef .tc main_v3) = _
  after_results
  have e : Pipeline.withArrays (cfgs 0).spec c (V0 m c) (fun w => (dats m 0 c).arrAt w (cfgs 0).N) (Proc.devRef .tc main_v2) = resFlat m c :=
    (Pipeline.withArrays_arr spec0 launch0.win.arr_inj c (V0 m c) (fun w => (dats m 0 c).arrAt w cfg0.N) 3).trans (final m c)
  rw [e]
  rfl

/-- Row `(b, n)` of the grid is flat row `32768 b + n`: the flat result re-laid is the estimator over the grid of the
    three arguments. -/
theorem grid_eq (c : Dev nD) : shapeCast S4x32768 (resFlat m c) shapeCasts_S131072_S4x32768
    = estGrid (m ((c : Thread nD τ).loc main_arg0)) (m ((c : Thread nD τ).loc main_arg1)) (m ((c : Thread nD τ).loc main_arg2)) := by
  funext i
  obtain ⟨b, n, rfl⟩ : ∃ (b : Fin 4) (n : Fin 32768), i = ix2 b n := ⟨i 0, i 1, eq_ix2 i⟩
  have hr : b.val * 32768 + n.val < 131072 := by have := b.isLt; have := n.isLt; omega
  have e1 : shapeCast S4x32768 (resFlat m c) shapeCasts_S131072_S4x32768 (ix2 b n)
      = resFlat m c (ix1 (⟨b.val * 32768 + n.val, hr⟩ : Fin 131072)) :=
    shapeCast_apply (resFlat m c) shapeCasts_S131072_S4x32768 _ _ (by
      rw [Shape.rowMajor_val_one, Shape.rowMajor_val_two]; rfl)
  rw [e1, estGrid_ix2]
  unfold resFlat
  rw [estFlat_ix1, V_v0, V_v1, V_main_arg2]
  refine congrArg₂ (fun a b => rowEst a b _) (funext fun d => ?_) (funext fun d => ?_)
  · exact shapeCast_apply _ shapeCasts_S4x32768x128_S131072x128 _ _ (by
      rw [Shape.rowMajor_val_three, Shape.rowMajor_val_two]; rfl)
  · exact shapeCast_apply _ shapeCasts_S4x32768x128_S131072x128 _ _ (by
      rw [Shape.rowMajor_val_three, Shape.rowMajor_val_two]; rfl)

/-- The kernel's run, read: every execution ends with the result at the estimator over the grid of the three
    arguments, and the arguments as they were. -/
theorem run : θ_run defs (onTc (τ := τ) (main (F := Ideal))) ⟨m, fun _ => 0, ρ⟩ fun r => ∀ c : Dev nD,
      r.2.mem ((c.tc : Thread nD τ).loc main_v3)
        = estGrid (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans ((tail_eq m c).trans (grid_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.Qjl

end
-- ==== Proof.lean ====
/-
  The proof of `Cert.Claim`: the kernel and the reference compute the same estimator.

  Both programs take queries and keys of shape [4, 32768, 128] and a 256 × 128 projection matrix, and return, for each
  of the 4 · 32768 rows, `scale · ∑ⱼ (q · sⱼ) · sign (k · sⱼ)` (Proof/Spec.lean). The reference does so on the whole arrays
  (Proof/RefIsSpec.lean reads its operations at an index). The kernel flattens the rows, walks them in sixteen blocks
  of 8192 rows, each block in four chunks of 2048 rows: one chunk's arithmetic is the row estimate (Proof/Payload.lean),
  the four stores of a block are restrictions of one function of the row (Proof/Pieces.lean), and the sixteen blocks
  cover the rows, whose flat order is the grid's row-major order (Proof/Blocks.lean). Over the extended reals nothing
  else differs: a change of float format is the identity, a sum's order does not matter, and the scale multiplies on
  the other side. No finiteness of the inputs is used.

  The three frames are the generated ones (the reference's: its generated run with the result dropped); the one
  rewrite of the idealization — the sign read off the sign bit — is its rule's statement.
-/
import proofs.«147206_j42700564857502_2_alg».proof.Defs
import proofs.«147206_j42700564857502_2_alg».proof.Proof.Gen.Kernel
import proofs.«147206_j42700564857502_2_alg».proof.Proof.Gen.Kernel.Frame
import proofs.«147206_j42700564857502_2_alg».proof.Proof.Gen.KernelIdeal
import proofs.«147206_j42700564857502_2_alg».proof.Proof.Gen.KernelIdeal.Frame
import proofs.«147206_j42700564857502_2_alg».proof.Proof.Gen.ReferenceIdeal
import proofs.«147206_j42700564857502_2_alg».proof.Proof.Gen.ReferenceIdeal.Run
import proofs.«147206_j42700564857502_2_alg».proof.Proof.Gen.ReferenceIdeal.Read
import proofs.«147206_j42700564857502_2_alg».proof.Proof.Gen.Pre_finite_inputs
import proofs.«147206_j42700564857502_2_alg».proof.Proof.Spec
import proofs.«147206_j42700564857502_2_alg».proof.Proof.RefIsSpec
import proofs.«147206_j42700564857502_2_alg».proof.Proof.Blocks
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite: 1.0 carrying the sign bit of `x` is `-1` where `x < 0` and `1` elsewhere. -/
theorem preserves : Cert.preserves_Kernel_KernelIdeal :=
  IdealRules.sign_bit.statement Cert.KernelIdeal.S2048x256 .f32

/-- Both runs end at the estimator over the grid of the same three arguments. -/
theorem algebraic : Cert.algebraic_KernelIdeal_ReferenceIdeal := by
  intro m ρ m' ρ' _ hagree
  refine ⟨fun c => Cert.Qjl.estGrid (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), Cert.Qjl.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.Qjl.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
